-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x1024 : Shape := ⟨3, ![1024, 256, 1024]⟩
abbrev S512x1024 : Shape := ⟨2, ![512, 1024]⟩
abbrev S_ : Shape := ⟨0, ![]⟩

class Facts : Prop where
  bcast_S_S1024x256x1024 : S_.BroadcastsInDim S1024x256x1024 (![] : Fin 0 → Fin S1024x256x1024.rank)
  reducesTo_S1024x256x1024_S_d0_1_2 : S1024x256x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S1024x256x1024 .f32) (main_arg1 : FVec F S512x1024 .f32) : IVec S_ 1 :=
  let main_v0 : FVec F S1024x256x1024 .f32 := Host.absf main_arg0
  let main_cst : FVec F S_ .f32 := constant S_ .f32 0x7F800000#32
  let main_v1 : FVec F S1024x256x1024 .f32 := broadcastInDim S1024x256x1024 ![] bcast_S_S1024x256x1024 main_cst
  let main_v2 : IVec S1024x256x1024 1 := cmpf .olt main_v0 main_v1
  let main_c : IVec S_ 1 := constantI S_ 1 1#1
  let main_v3 : IVec S_ 1 := (fun x v => Host.reduce IntOp.andi x v reducesTo_S1024x256x1024_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S1024x256x1024 : Shape := ⟨3, ![1024, 256, 1024]⟩
abbrev S512x1024 : Shape := ⟨2, ![512, 1024]⟩
abbrev S_ : Shape := ⟨0, ![]⟩
abbrev S512 : Shape := ⟨1, ![512]⟩
abbrev S1x512 : Shape := ⟨2, ![1, 512]⟩
abbrev S1024x512 : Shape := ⟨2, ![1024, 512]⟩
abbrev S16x256x1024 : Shape := ⟨3, ![16, 256, 1024]⟩
abbrev S16x512 : Shape := ⟨2, ![16, 512]⟩
abbrev S16x1024 : Shape := ⟨2, ![16, 1024]⟩
abbrev S16x32x1024 : Shape := ⟨3, ![16, 32, 1024]⟩
abbrev S16 : Shape := ⟨1, ![16]⟩
abbrev S16x1 : Shape := ⟨2, ![16, 1]⟩
abbrev S1024x64x8 : Shape := ⟨3, ![1024, 64, 8]⟩
abbrev S1024x8 : Shape := ⟨2, ![1024, 8]⟩

abbrev nBuf : Space → Nat
  | .hbm => 13
  | .vmem => 7
  | .smem => 0
  | _ => 0

abbrev bufTy : (tb : Table) → Fin (tcTables nBuf tb) → BufTy
  | .hbm, ⟨0, _⟩ => ⟨S1024x256x1024, .f32⟩
  | .hbm, ⟨1, _⟩ => ⟨S512x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S1024x512, .f32⟩
  | .hbm, ⟨7, _⟩ => ⟨S1024x64x8, .f32⟩
  | .hbm, ⟨8, _⟩ => ⟨S_, .f32⟩
  | .hbm, ⟨9, _⟩ => ⟨S1024x8, .f32⟩
  | .hbm, ⟨10, _⟩ => ⟨S_, .f32⟩
  | .hbm, ⟨11, _⟩ => ⟨S1024x8, .f32⟩
  | .hbm, ⟨12, _⟩ => ⟨S1024x8, .f32⟩
  | .local _ .vmem, ⟨0, _⟩ => ⟨S16x256x1024, .f32⟩
  | .local _ .vmem, ⟨1, _⟩ => ⟨S16x256x1024, .f32⟩
  | .local _ .vmem, ⟨2, _⟩ => ⟨S512x1024, .f32⟩
  | .local _ .vmem, ⟨3, _⟩ => ⟨S1x512, .f32⟩
  | .local _ .vmem, ⟨4, _⟩ => ⟨S16x512, .f32⟩
  | .local _ .vmem, ⟨5, _⟩ => ⟨S16x512, .f32⟩
  | .local _ .vmem, ⟨6, _⟩ => ⟨S16x1024, .f32⟩
  | _, _ => ⟨S1024x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v24 : BitVec 32 := Scalar.muli arg6 c1_i32_14
  let v25 : BitVec 32 := Scalar.addi c0_i32_15 v24
  let c32_i32 : BitVec 32 := 32#32
  let v26 : BitVec 32 := Scalar.muli v25 c32_i32
  v26
def k0_off1 (k0_t1 : Fin k0_t1_loop.trips) : Fin 3 → Nat :=
  let c0_16 : Index := 0#32
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v24 : BitVec 32 := Scalar.muli arg6 c1_i32_14
  let v25 : BitVec 32 := Scalar.addi c0_i32_15 v24
  let c32_i32 : BitVec 32 := 32#32
  let v26 : BitVec 32 := Scalar.muli v25 c32_i32
  let v27 : BitVec 32 := v26
  let v28 : Index := Scalar.indexCast v27
  let c0_17 : Index := 0#32
  ![0, v28.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x1024_S512_d1 : S512x1024.ReducesTo [1] S512
  h_S_ : 0 < S_.numel
  shapeCasts_S512_S1x512 : S512.ShapeCasts S1x512
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  h_S16x32x1024 : 0 < S16x32x1024.numel
  reduces_S16x32x1024_S16x1024 : S16x32x1024.Reduces [1] S16x1024
  reduces_S16x1024_S16 : S16x1024.Reduces [1] S16
  shapeCasts_S16_S16x1 : S16.ShapeCasts S16x1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  broadcasts_S16x1_S16x512 : S16x1.Broadcasts S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x512_S16x512_0_0 : ∀ a, (![0, 0] : Fin 2 → Nat) a + S16x512.size a ≤ S16x512.size a
  h_S16x512 : 0 < S16x512.numel
  shapeCasts_S1024x512_S1024x64x8 : S1024x512.ShapeCasts S1024x64x8
  reducesTo_S1024x64x8_S1024x8_d1 : S1024x64x8.ReducesTo [1] S1024x8
  bcast_S_S1024x8 : S_.BroadcastsInDim S1024x8 (![] : Fin 0 → Fin S1024x8.rank)
  dot_S16x1024_S512x1024_S16x512_1_1_0_0_n_n_wf : DotDims.WF S16x1024 S512x1024 S16x512 [1] [1] [0] [0] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S16x32x1024.size a ≤ S16x256x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S1024x256x1024.size a
  hwx0_0 : ∀ i : grid0.Coords, EltTy.bits .f32 = 32 ∨ (Rect.block (s := S1024x256x1024) S16x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S1024x512.size a
  hwx0_3 : ∀ i : grid0.Coords, EltTy.bits .f32 = 32 ∨ (Rect.block (s := S1024x512) S16x512.size (cc0_transform_3 i) (hinb0_3 i)).WholeWords (EltTy.packing .f32)

variable [Facts₀]

def dot_S16x1024_S512x1024_S16x512_1_1_0_0_n_n : DotDims S16x1024 S512x1024 S16x512 where
  lhsContracting := [1]
  rhsContracting := [1]
  lhsNonContracting := [0]
  rhsNonContracting := [0]
  lhsBatch := []
  rhsBatch := []
  wf := dot_S16x1024_S512x1024_S16x512_1_1_0_0_n_n_wf

abbrev win0_0 : Pipeline.Window sig grid0 :=
  Pipeline.Window.ofSpec (Memref.whole main_arg0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256x1024 : Shape := ⟨3, ![1024, 256, 1024]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S512 : Shape := ⟨1, ![512]⟩
abbrev S1024x512 : Shape := ⟨2, ![1024, 512]⟩
abbrev S1x512 : Shape := ⟨2, ![1, 512]⟩
abbrev S1024x64x8 : Shape := ⟨3, ![1024, 64, 8]⟩
abbrev S1024x8 : Shape := ⟨2, ![1024, 8]⟩

abbrev nBuf : Space → Nat
  | .hbm => 29
  | .vmem => 0
  | .smem => 0
  | _ => 0

abbrev bufTy : (tb : Table) → Fin (tcTables nBuf tb) → BufTy
  | .hbm, ⟨0, _⟩ => ⟨S1024x256x1024, .f32⟩
  | .hbm, ⟨1, _⟩ => ⟨S512x1024, .f32⟩
  | .hbm, ⟨2, _⟩ => ⟨S_, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S512x1024, .f32⟩
  | .hbm, ⟨12, _⟩ => ⟨S_, .f32⟩
  | .hbm, ⟨13, _⟩ => ⟨S512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1x512, .f32⟩
  | .hbm, ⟨21, _⟩ => ⟨S1024x512, .f32⟩
  | .hbm, ⟨22, _⟩ => ⟨S1024x512, .f32⟩
  | .hbm, ⟨23, _⟩ => ⟨S1024x64x8, .f32⟩
  | .hbm, ⟨24, _⟩ => ⟨S_, .f32⟩
  | .hbm, ⟨25, _⟩ => ⟨S1024x8, .f32⟩
  | .hbm, ⟨26, _⟩ => ⟨S_, .f32⟩
  | .hbm, ⟨27, _⟩ => ⟨S1024x8, .f32⟩
  | .hbm, ⟨28, _⟩ => ⟨S1024x8, .f32⟩
  | _, _ => ⟨S1024x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  reducesTo_S1024x256x1024_S1024x1024_d1 : S1024x256x1024.ReducesTo [1] S1024x1024
  h_S_ : 0 < S_.numel
  bcast_S_S1024x1024 : S_.BroadcastsInDim S1024x1024 (![] : Fin 0 → Fin S1024x1024.rank)
  reducesTo_S1024x1024_S1024_d1 : S1024x1024.ReducesTo [1] S1024
  bcast_S1024_S1024x1_0 : S1024.BroadcastsInDim S1024x1 (![0] : Fin 1 → Fin S1024x1.rank)
  reducesTo_S512x1024_S512_d1 : S512x1024.ReducesTo [1] S512
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  shapeCasts_S1024x512_S1024x64x8 : S1024x512.ShapeCasts S1024x64x8
  reducesTo_S1024x64x8_S1024x8_d1 : S1024x64x8.ReducesTo [1] S1024x8
  bcast_S_S1024x8 : S_.BroadcastsInDim S1024x8 (![] : Fin 0 → Fin S1024x8.rank)
  dot_S1024x1024_S512x1024_S1024x512_1_1_0_0_n_n_wf : DotDims.WF S1024x1024 S512x1024 S1024x512 [1] [1] [0] [0] [] []

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

class Facts : Prop extends Facts₀ where

variable [Facts]
-- ==== Proof.LibReadBack.lean ====
/-
  Reading a buffer back after it has been overwritten whole.

  When the most recent store into a buffer covered all of it, a load of the whole buffer reads that store's value,
  whatever the earlier stores were: an accumulator that is rewritten in full several times and read back after each.
-/
import Idealize.ShloMosaic.Lib.Pipeline.Value

noncomputable section

namespace Cert.Lib

open Idealize.ShloMosaic

variable {Val : EltTy → Type} {S : Shape} {e : EltTy}

/-- A load through the whole-shape rectangle at zero offsets, of what a list of stores left whose LAST store went
    through that same rectangle, reads the last store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.Lib

end
-- ==== Proof.AccLoop.lean ====
/-
  What the accumulator holds when the chunk loop ends, for any float values.

  The body clears a [16, 1024] accumulator, then eight times loads it back, adds to it the sum over 32 consecutive time
  steps of the input block, and stores it whole. Every store covers the whole accumulator, so a load of it reads the
  value of the most recent store and nothing older. Hence the accumulator follows the recursion
      acc 0 = the cleared block,   acc (k + 1) = acc k + (sum over time steps 32 k … 32 k + 31),
  and the block the body finally writes out is its closing arithmetic applied to `acc 8`.
-/
import proofs.«142011_j4252017623198_2_alg».proof.Proof.Gen.KernelIdeal.Frame
import proofs.«142011_j4252017623198_2_alg».proof.Proof.LibReadBack
import Idealize.ShloMosaic.Lib.Pipeline.Value
import Idealize.ShloMosaic.Lib.Tactic

noncomputable section

open Idealize.ShloMosaic Idealize.ShloMosaic.TcCoe Idealize.SL.Sem

namespace Cert.KernelIdeal.AccLoop

open Cert.KernelIdeal Cert.KernelIdeal.Gen

variable {F : FTy → Type} [FloatOps F]

theorem zero2 : (![0, 0] : Fin 2 → Nat) = fun _ => 0 := funext fun a => by fin_cases a <;> rfl

/-- The 32 time steps of the input block that trip `k` reads: rows `32 k … 32 k + 31` of its middle axis. -/
def chunk (x0 : Vec F S16x256x1024 .f32) (k : Fin k0_t1_loop.trips) : Vec F S16x32x1024 .f32 :=
  View.ld x0 (Rect.unit (s := S16x256x1024) (k0_off1 k) S16x32x1024.size (k0_off1_inb k))

/-- The accumulator before trip `k`: cleared, then one chunk's sum added per trip. -/
def acc (x0 : Vec F S16x256x1024 .f32) : ℕ → Vec F S16x1024 .f32
  | 0 => k0_pay1
  | k + 1 => if h : k < k0_t1_loop.trips then k0_pay2 (chunk x0 ⟨k, h⟩) (acc x0 k) else acc x0 k

theorem acc_succ (x0 : Vec F S16x256x1024 .f32) (k : Fin k0_t1_loop.trips) :
    acc x0 (k.val + 1) = k0_pay2 (chunk x0 k) (acc x0 k.val) := by
  rw [acc]; exact dif_pos k.isLt

/-- The store that clears the accumulator. -/
abbrev clearing : View.Piece (Elt F) S16x1024 .f32 :=
  ⟨Rect.unit (s := S16x1024) ![0, 0] S16x1024.size inb_S16x1024_S16x1024_0_0, k0_pay1⟩

/-- One trip stores once, through the whole accumulator: what it found there plus the sum of its chunk. -/
theorem trip_piece (𝒱 : Variants) (c : Dev nD) (bd : Option 𝒱.V) (i : grid0.Coords) (arg1 : Memref sig .tc .vmem S16x256x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S16x512 .f32) (harg4 : arg4.IsWhole) (arg5 : Memref sig .tc .vmem S16x1024 .f32) (harg5 : arg5.IsWhole)
    (X : BufTy.Contents (Elt F) arg1.view.ty) (k : Fin k0_t1_loop.trips) (f : BufTy.Contents (Elt F) arg5.view.ty) :
    tripL_k0_t1 (F := F) 𝒱 c bd i arg1 harg1 arg2 harg2 arg3 harg3 arg4 harg4 arg5 harg5 X k f
      = [⟨Rect.unit (s := S16x1024) ![0, 0] S16x1024.size inb_S16x1024_S16x1024_0_0,
          k0_pay2 (View.readAt (Elt F) arg1.view (Rect.unit (s := S16x256x1024) (k0_off1 k) S16x32x1024.size (k0_off1_inb k)).toLoadRect X)
            (View.readAt (Elt F) arg5.view (Rect.unit (s := S16x1024) ![0, 0] S16x1024.size inb_S16x1024_S16x1024_0_0).toLoadRect f)⟩] := by
  unfold tripL_k0_t1 trip_k0_t1
  rfl

/-- Before the first trip the loop has stored nothing. -/
theorem pieces_zero (𝒱 : Variants) (c : Dev nD) (bd : Option 𝒱.V) (i : grid0.Coords) (arg1 : Memref sig .tc .vmem S16x256x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S16x512 .f32) (harg4 : arg4.IsWhole) (arg5 : Memref sig .tc .vmem S16x1024 .f32) (harg5 : arg5.IsWhole)
    (X : BufTy.Contents (Elt F) arg1.view.ty) (G : BufTy.Contents (Elt F) arg5.view.ty) :
    pb_k0_t1 (F := F) 𝒱 c bd i arg1 harg1 arg2 harg2 arg3 harg3 arg4 harg4 arg5 harg5 X G 0 = [] := rfl

/-- A load of a whole buffer, after stores the last of which filled the whole buffer, reads that last store. -/
theorem readAt_last_whole {Val : EltTy → Type} [∀ e, Nonempty (Val e)] {sg : RefSig} {κ : Kind} {sp : Space} {S : Shape}
    {e : EltTy} (v : View sg κ sp S e) {off : Fin S.rank → Nat} (h : off = fun _ => 0)
    (inb : ∀ a, off a + S.size a ≤ S.size a) (w : S.Idx → Val e) (L : List (View.Piece Val S e)) :
    v.readAt Val (Rect.unit off S.size inb).toLoadRect
      (v.writes Val v.junk ((⟨Rect.unit off S.size inb, w⟩ : View.Piece Val S e) :: L)) = w :=
  Cert.Lib.readCov_cons_unit_zero v h inb w L

/-- After the clearing store and the first `k` trips, a load of the whole accumulator reads `acc k`. -/
theorem read_after_trips (𝒱 : Variants) (c : Dev nD) (bd : Option 𝒱.V) (i : grid0.Coords) (arg1 : Memref sig .tc .vmem S16x256x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S16x512 .f32) (harg4 : arg4.IsWhole) (arg5 : Memref sig .tc .vmem S16x1024 .f32) (harg5 : arg5.IsWhole)
    (x0 : Vec F S16x256x1024 .f32) (k : ℕ) (hk : k ≤ k0_t1_loop.trips) :
    View.readAt (Elt F) arg5.view (Rect.unit (s := S16x1024) ![0, 0] S16x1024.size inb_S16x1024_S16x1024_0_0).toLoadRect
      (arg5.view.writes (Elt F) (arg5.view.writes (Elt F) arg5.view.junk [clearing (F := F)])
        (pb_k0_t1 (F := F) 𝒱 c bd i arg1 harg1 arg2 harg2 arg3 harg3 arg4 harg4 arg5 harg5 (harg1.unread x0)
          (arg5.view.writes (Elt F) arg5.view.junk [clearing (F := F)]) k)) = acc x0 k := by
  induction k with
  | zero =>
    rw [pieces_zero, View.writes_nil]
    exact readAt_last_whole (Val := Elt F) arg5.view zero2 inb_S16x1024_S16x1024_0_0 (k0_pay1 (F := F)) []
  | succ k ih =>
    have hk' : k < k0_t1_loop.trips := hk
    have e := pb_k0_t1_succ (F := F) 𝒱 c bd i arg1 harg1 arg2 harg2 arg3 harg3 arg4 harg4 arg5 harg5 (harg1.unread x0)
      (arg5.view.writes (Elt F) arg5.view.junk [clearing (F := F)]) ⟨k, hk'⟩
    dsimp only at e
    rw [e, trip_piece, ih (Nat.le_of_lt hk'), List.singleton_append, ← View.writes_append, List.cons_append,
      readAt_last_whole (Val := Elt F) arg5.view zero2, View.readAt_eq_ld, harg1.read_unread]
    exact (acc_succ x0 ⟨k, hk'⟩).symm

/-- What the body leaves in the output's staging buffer: its closing arithmetic of the accumulator after all the
    trips, the weight block and the row of squared norms. -/
theorem out_eq (c : Dev nD) (i : grid0.Coords) (arg1 : Memref sig .tc .vmem S16x256x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S16x512 .f32) (harg4 : arg4.IsWhole) (arg5 : Memref sig .tc .vmem S16x1024 .f32) (harg5 : arg5.IsWhole)
    (x0 : Vec F S16x256x1024 .f32) (x1 : Vec F S512x1024 .f32) (x2 : Vec F S1x512 .f32) :
    out0_A_3 c i arg1 harg1 arg2 harg2 arg3 harg3 arg4 harg4 arg5 harg5 x0 x1 x2 = k0_pay3 (acc x0 k0_t1_loop.trips) x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero zero2, View.writes_append]
  rw [read_after_trips Variants.none c none i arg1 harg1 arg2 harg2 arg3 harg3 arg4 harg4 arg5 harg5 x0 _ (Nat.le_refl _)]
  simp only [View.readAt_eq_ld, harg2.read_unread, harg3.read_unread, View.ld_unit_zero (S := S512x1024) zero2,
    View.ld_unit_zero (S := S1x512) zero2]

end Cert.KernelIdeal.AccLoop

end
-- ==== Proof.LibTileSum.lean ====
/-
  A sum over `K * T` consecutive indices cut into `K` tiles of `T` consecutive indices each.

  The index `i < K * T` is written `i = k * T + j` with `k < K` the tile and `j < T` the position inside the tile; the
  map `(k, j) ↦ k * T + j` is a bijection of `Fin K × Fin T` with `Fin (K * T)`, so the sum of `f` over all indices is
  the sum over the tiles of each tile's sum (`sum_tiles`). A running total that starts at `0` and adds one tile's sum
  at each of `K` steps therefore ends at the whole sum (`sum_tiles_fold`). Both hold in any additive commutative monoid.
-/
import Mathlib.Data.Fintype.BigOperators
import Mathlib.Logic.Equiv.Fin.Basic
import Mathlib.Algebra.BigOperators.Fin

open scoped BigOperators

namespace Cert.Lib

/-- Position `j` of tile `k` is a valid index: `k * T + j < (k + 1) * T ≤ K * T`. -/
theorem tile_lt {K T k : ℕ} (hk : k < K) (j : Fin T) : k * T + j.val < K * T :=
  calc k * T + j.val < k * T + T := Nat.add_lt_add_left j.isLt _
    _ = (k + 1) * T := (Nat.succ_mul k T).symm
    _ ≤ K * T := Nat.mul_le_mul_right T hk

/-- The sum over `K * T` indices is the sum over the `K` tiles of the sum over each tile's `T` positions: re-index the
    right side along the bijection `(k, j) ↦ k * T + j` and split the sum over the product into the double sum. -/
theorem sum_tiles {M : Type*} [AddCommMonoid M] (K T : ℕ) (f : Fin (K * T) → M) :
    ∑ k : Fin K, ∑ j : Fin T, f ⟨k.val * T + j.val, tile_lt k.isLt j⟩ = ∑ i : Fin (K * T), f i := by
  refine Eq.trans ?_ (Equiv.sum_comp (finProdFinEquiv (m := K) (n := T)) f)
  rw [Fintype.sum_prod_type]
  refine Finset.sum_congr rfl fun k _ => Finset.sum_congr rfl fun j _ => congrArg f (Fin.ext ?_)
  show k.val * T + j.val = j.val + T * k.val
  rw [Nat.mul_comm, Nat.add_comm]

/-- The running form: a total `acc` that starts at `0` and at step `k < K` adds the sum of tile `k` is, after `K` steps,
    the sum over all `K * T` indices. After `n ≤ K` steps the total is the sum of the first `n` tiles (induction on
    `n`); at `n = K` that is the double sum of `sum_tiles`. -/
theorem sum_tiles_fold {M : Type*} [AddCommMonoid M] (K T : ℕ) (f : Fin (K * T) → M) (acc : ℕ → M) (h0 : acc 0 = 0)
    (hs : ∀ k (hk : k < K), acc (k + 1) = acc k + ∑ j : Fin T, f ⟨k * T + j.val, tile_lt hk j⟩) :
    acc K = ∑ i : Fin (K * T), f i := by
  have key : ∀ n, n ≤ K → acc n = ∑ k ∈ Finset.range n,
      (if hk : k < K then ∑ j : Fin T, f ⟨k * T + j.val, tile_lt hk j⟩ else 0) := by
    intro n
    induction n with
    | zero => intro _; rw [Finset.range_zero, Finset.sum_empty]; exact h0
    | succ n ih =>
      intro hn
      have hk : n < K := hn
      rw [Finset.sum_range_succ, ← ih (Nat.le_of_lt hk), dif_pos hk, hs n hk]
  rw [key K (Nat.le_refl K), ← sum_tiles K T f, Finset.sum_fin_eq_sum_range]

/-- `sum_tiles` at 16 tiles of 1024, stated over `Fin 16384`. -/
theorem sum_tiles_16_1024 {M : Type*} [AddCommMonoid M] (f : Fin 16384 → M) :
    ∑ k : Fin 16, ∑ j : Fin 1024, f ⟨k.val * 1024 + j.val, by omega⟩ = ∑ i : Fin 16384, f i :=
  sum_tiles 16 1024 f

/-- `sum_tiles_fold` at 16 tiles of 1024, stated over `Fin 16384`. -/
theorem sum_tiles_fold_16_1024 {M : Type*} [AddCommMonoid M] (f : Fin 16384 → M) (acc : ℕ → M) (h0 : acc 0 = 0)
    (hs : ∀ k (hk : k < 16), acc (k + 1) = acc k + ∑ j : Fin 1024, f ⟨k * 1024 + j.val, by omega⟩) :
    acc 16 = ∑ i : Fin 16384, f i :=
  sum_tiles_fold 16 1024 f acc h0 hs

end Cert.Lib
-- ==== Proof.LibMidAxisSum.lean ====
/-
  General lemma: a sum along the MIDDLE axis of a three-axis array, read at an index.

  At the ideal values an f32 `vector.multi_reduction <add>` of an `[a, b, c]` array over axis 1 into `[a, c]`, from the
  sum's neutral word, is at `(p, r)` the sum over `k : Fin b` of the entries `(p, k, r)`: the reduced index with the
  middle coordinate put back is `(p, k, r)` (`lift_mid`), and the lane-sum law of the ideal instance does the rest
  (`midSum_abc_apply`). The companion of the first-axis and last-axis forms, for a reduction that pools a block over
  its second axis.
-/
import Idealize.ShloMosaic.Lib.ValueIdx
import Idealize.ShloMosaic.PureOps.Ideal.Laws

noncomputable section

open scoped BigOperators

namespace Cert.Lib

open Idealize.ShloMosaic Idealize.ShloMosaic.ValueIdx

/-- The reduced index `(p, r)` with the middle coordinate `k` put back is `(p, k, r)`. -/
theorem lift_mid {a b c : ℕ} (h : (⟨3, ![a, b, c]⟩ : Shape).Reduces [1] ⟨2, ![a, c]⟩) (p : Fin a) (r : Fin c)
    (k : Fin ((⟨3, ![a, b, c]⟩ : Shape).size 1)) : h.lift (ix2 p r) k = ix3 p (⟨k.val, k.isLt⟩ : Fin b) r :=
  funext fun ax => Fin.ext (by
    match ax with
    | ⟨0, _⟩ => rfl
    | ⟨1, _⟩ => rfl
    | ⟨2, _⟩ => rfl)

/-- At the ideal values the f32 sum of an `[a, b, c]` array over its middle axis is, at `(p, r)`, the sum over the
    middle coordinate. -/
theorem midSum_abc_apply {a b c : ℕ} (v : FVec Ideal ⟨3, ![a, b, c]⟩ .f32) (acc : BitVec FTy.f32.bits)
    (h : (⟨3, ![a, b, c]⟩ : Shape).Reduces [1] ⟨2, ![a, c]⟩) (hφ : FKind.Formats .f32)
    (hacc : acc = FKind.add.neutral .f32 hφ) (p : Fin a) (r : Fin c) :
    multiReduction .add [1] ⟨2, ![a, c]⟩ v acc h hφ hacc (ix2 p r) = ∑ k : Fin b, v (ix3 p k r) :=
  (Ideal.multiReduction_add_single v acc h hφ hacc (ix2 p r)).trans
    (Finset.sum_congr rfl fun k _ => congrArg v (lift_mid h p r k))

end Cert.Lib

end
-- ==== Proof.AccValue.lean ====
/-
  The accumulator after the chunk loop, at the ideal values: the sum over all 256 time steps.

  At an entry `(p, d)` the cleared accumulator is `0`, and trip `k` adds `Σ j < 32, x (p, 32 k + j, d)`: the sum over
  the middle axis of the chunk whose rows are time steps `32 k … 32 k + 31` of the block `x`. Eight such tiles of 32
  make up the 256 time steps, and addition of extended reals is commutative and associative, so the running total
  after eight trips is `Σ t < 256, x (p, t, d)` (the tile-sum lemma; no finiteness is used).
-/
import proofs.«142011_j4252017623198_2_alg».proof.Proof.AccLoop
import proofs.«142011_j4252017623198_2_alg».proof.Proof.LibTileSum
import proofs.«142011_j4252017623198_2_alg».proof.Proof.LibMidAxisSum
import Idealize.ShloMosaic.Lib.ValueIdx
import Idealize.ShloMosaic.PureOps.Ideal.Laws

noncomputable section

open scoped BigOperators

namespace Cert.KernelIdeal.AccValue

open Cert.KernelIdeal Cert.KernelIdeal.Gen Cert.KernelIdeal.AccLoop Idealize.ShloMosaic Idealize.ShloMosaic.ValueIdx

/-- The loop makes eight trips. -/
theorem trips_eq : k0_t1_loop.trips = 8 := by decide

/-- The cleared accumulator is zero at every entry. -/
theorem cleared_apply (i : S16x1024.Idx) : k0_pay1 (F := Ideal) i = 0 := by
  unfold k0_pay1
  simp only [shapeCast_self]
  exact Ideal.ofBits_zero_f32

/-- One trip's new accumulator at `(p, d)`: the old entry plus the chunk's sum over its 32 time steps. -/
theorem update_apply (v29 : Vec Ideal S16x32x1024 .f32) (v30 : Vec Ideal S16x1024 .f32) (p : Fin 16) (d : Fin 1024) :
    k0_pay2 (F := Ideal) v29 v30 (ix2 p d) = v30 (ix2 p d) + ∑ j : Fin 32, v29 (ix3 p j d) := by
  unfold k0_pay2
  simp only [shapeCast_self]
  exact congrArg (v30 (ix2 p d) + ·) (Cert.Lib.midSum_abc_apply v29 _ _ _ _ p d)

/-- Row `j` of chunk `k` is time step `32 k + j` of the block. -/
theorem chunk_apply (x0 : Vec Ideal S16x256x1024 .f32) (k : Fin k0_t1_loop.trips) (p : Fin 16) (j : Fin 32)
    (d : Fin 1024) :
    chunk x0 k (ix3 p j d)
      = x0 (ix3 p (⟨32 * k.val + j.val, by have h : k.val < 8 := Nat.lt_of_lt_of_le k.isLt (Nat.le_of_eq trips_eq); omega⟩ : Fin 256) d) := by
  unfold chunk
  show x0 ((Rect.unit (s := S16x256x1024) (k0_off1 k) S16x32x1024.size (k0_off1_inb k)).idx (ix3 p j d)) = _
  refine congrArg x0 (funext fun a => Fin.ext ?_)
  have e := k0_off1_eq k
  match a with
  | ⟨0, _⟩ => show k0_off1 k 0 + 1 * p.val = p.val; rw [e]; show 0 + 1 * p.val = p.val; omega
  | ⟨1, _⟩ => show k0_off1 k 1 + 1 * j.val = 32 * k.val + j.val; rw [e]; show 32 * k.val + 1 * j.val = _; omega
  | ⟨2, _⟩ => show k0_off1 k 2 + 1 * d.val = d.val; rw [e]; show 0 + 1 * d.val = d.val; omega

/-- After all the trips the accumulator holds, at `(p, d)`, the sum of the block over its 256 time steps. -/
theorem acc_apply (x0 : Vec Ideal S16x256x1024 .f32) (p : Fin 16) (d : Fin 1024) :
    acc x0 k0_t1_loop.trips (ix2 p d) = ∑ t : Fin 256, x0 (ix3 p t d) := by
  rw [trips_eq]
  exact Cert.Lib.sum_tiles_fold 8 32 (fun t : Fin (8 * 32) => x0 (ix3 p (⟨t.val, t.isLt⟩ : Fin 256) d))
    (fun n => acc x0 n (ix2 p d)) (cleared_apply _) (fun k hk => by
      have hk' : k < k0_t1_loop.trips := by rw [trips_eq]; exact hk
      show acc x0 ((⟨k, hk'⟩ : Fin k0_t1_loop.trips).val + 1) (ix2 p d) = _
      rw [acc_succ, update_apply]
      refine congrArg (_ + ·) (Finset.sum_congr rfl fun j _ => ?_)
      rw [chunk_apply]
      refine congrArg x0 (congrArg (fun t => ix3 p t d) (Fin.ext ?_))
      show 32 * k + j.val = k * 32 + j.val
      omega)

end Cert.KernelIdeal.AccValue

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.LibLaneMax.lean ====
/-
  General lemmas: a maximum along the last axis of a matrix, and a one-row matrix broadcast over rows, read at an index.

  * `laneMax_ab_apply`: at the ideal values the f32 lane maximum of an `[a, b]` matrix (a
    `vector.multi_reduction <maximumf>` over axis 1 into `[a]`, from the maximum's neutral word) is, at row `p`, the
    fold of `max` from that word's value over the row's entries `v (p, k)`.
  * `broadcastTo_1b_ab_apply`: a one-row matrix `[1, b]` broadcast to `[a, b]` reads, at `(p, q)`, the row's entry `q`.
  * `fold_max_absorb`: the value a fold of `max` starts from is below the fold, so taking `max` with it again changes
    nothing.
-/
import Idealize.ShloMosaic.Lib.Pipeline.Value
import Idealize.ShloMosaic.Lib.ValueIdx
import Idealize.ShloMosaic.PureOps.Ideal.Laws

noncomputable section

namespace Idealize.ShloMosaic.ValueIdx

open Idealize.ShloMosaic

/-- A one-row matrix broadcast over `a` rows reads, at (p, q), the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- At the ideal values an f32 lane maximum of an `[a, b]` matrix is, at row `p`, the fold of `max` over the row's
    entries from the accumulator word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (fun f => (Finset.univ : Finset (Fin b)).fold max (Ideal.ofBits .f32 acc) f)
      (funext fun k => congrArg v (funext fun ax => Fin.ext (by
        match ax with
        | ⟨0, _⟩ => rfl
        | ⟨1, _⟩ => rfl))))

/-- A fold of `max` absorbs the value it starts from. -/
theorem fold_max_absorb {ι : Type} (s : Finset ι) (b : EReal) (f : ι → EReal) :
    max b (s.fold max b f) = s.fold max b f :=
  max_eq_right (Finset.le_fold_max b |>.mpr (Or.inl le_rfl))

end Idealize.ShloMosaic.ValueIdx

end
-- ==== Proof.Payload.lean ====
/-
  The body's closing arithmetic, read at an entry, at the ideal values.

  From the accumulated time sums `s` ([16, 1024]), the prototypes `w` ([512, 1024]) and the row `n` ([1, 512]) of
  their squared norms, the body forms `a = s · 2⁻⁸`, contracts `a` with `w` over the feature axis (the change of
  format before the product is the identity at the ideal values, and the product accumulates into zero), takes the
  squared norm of each row of `a` as a column, and returns, at `(p, q)`,
      2 · (Σ d, a p d · w q d) − (Σ d, a p d · a p d) − n 0 q.
-/
import proofs.«142011_j4252017623198_2_alg».proof.Proof.Gen.KernelIdeal.Skeleton
import proofs.«142011_j4252017623198_2_alg».proof.Proof.LibKeepdims
import proofs.«142011_j4252017623198_2_alg».proof.Proof.LibLaneMax
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The contraction of the body's product: the feature axis of both operands. -/
abbrev D : DotDims S16x1024 S512x1024 S16x512 := dot_S16x1024_S512x1024_S16x512_1_1_0_0_n_n

theorem lhs_row (i : S16x512.Idx) (k : D.contr.Idx) : (D.lhsIdx i k 0).val = (i 0).val := by
  unfold DotDims.lhsIdx
  rw [dif_neg (show ¬(0 : Fin S16x1024.rank) ∈ D.lhsBatch by decide),
    dif_pos (show (0 : Fin S16x1024.rank) ∈ D.lhsNonContracting by decide)]
  rfl
theorem lhs_col (i : S16x512.Idx) (k : D.contr.Idx) : (D.lhsIdx i k 1).val = (k ⟨0, by decide⟩).val :=
  D.lhsIdx_val_of_single rfl i k
theorem rhs_row (i : S16x512.Idx) (k : D.contr.Idx) : (D.rhsIdx i k 0).val = (i 1).val := by
  unfold DotDims.rhsIdx
  rw [dif_neg (show ¬(0 : Fin S512x1024.rank) ∈ D.rhsBatch by decide),
    dif_pos (show (0 : Fin S512x1024.rank) ∈ D.rhsNonContracting by decide)]
  rfl
theorem rhs_col (i : S16x512.Idx) (k : D.contr.Idx) : (D.rhsIdx i k 1).val = (k ⟨0, by decide⟩).val :=
  D.rhsIdx_val_of_single rfl i k

/-- The product into a zero accumulator, at `(p, q)`: the inner product of row `p` of the left operand with row `q` of
    the right one. -/
theorem product_apply {φ₁ φ₂ : FTy} (l : FVec Ideal S16x1024 φ₁) (r : FVec Ideal S512x1024 φ₂) (p : Fin 16) (q : Fin 512) :
    matmul D none l r (constant (F := Ideal) S16x512 .f32 0x00000000#32) (ix2 p q)
      = ∑ d : Fin 1024, l (ix2 p d) * r (ix2 q d) := by
  simp only [matmul]
  rw [Ideal.matmul_constant_zero_apply, ← Equiv.sum_comp (ValueIdx.contrEquiv1 D 1024 rfl rfl).symm]
  refine Finset.sum_congr rfl fun k _ => ?_
  have hk := ValueIdx.contrEquiv1_symm_val D 1024 rfl rfl k
  have el : D.lhsIdx (ix2 p q) ((ValueIdx.contrEquiv1 D 1024 rfl rfl).symm k) = ix2 p k := funext fun a => Fin.ext (by
    match a with
    | ⟨0, _⟩ => exact lhs_row _ _
    | ⟨1, _⟩ => exact (lhs_col _ _).trans hk)
  have er : D.rhsIdx (ix2 p q) ((ValueIdx.contrEquiv1 D 1024 rfl rfl).symm k) = ix2 q k := funext fun a => Fin.ext (by
    match a with
    | ⟨0, _⟩ => exact rhs_row _ _
    | ⟨1, _⟩ => exact (rhs_col _ _).trans hk)
  rw [el, er]

/-- A row's sum of a [16, 1024] array kept as a column and spread over 512 columns, at `(p, q)`. -/
theorem rowSum_spread_apply (v : FVec Ideal S16x1024 .f32) (h : S16x1024.Reduces [1] S16) (hφ : FKind.Formats .f32)
    (hacc : (0x00000000#32 : BitVec FTy.f32.bits) = FKind.add.neutral .f32 hφ) (hc : S16.ShapeCasts S16x1)
    (hb : S16x1.Broadcasts S16x512) (p : Fin 16) (q : Fin 512) :
    broadcastTo S16x512 (shapeCast S16x1 (multiReduction .add [1] S16 v 0x00000000#32 h hφ hacc) hc) hb (ix2 p q)
      = ∑ d : Fin 1024, v (ix2 p d) :=
  (broadcastTo_a1_ab_apply _ hb p q).trans ((shapeCast_a_a1_apply _ hc p 0).trans (laneSum_ab_apply v _ h hφ hacc p))

/-- The body's result at `(p, q)`. -/
theorem result_apply (s : Vec Ideal S16x1024 .f32) (w : Vec Ideal S512x1024 .f32) (n : Vec Ideal S1x512 .f32)
    (p : Fin 16) (q : Fin 512) :
    k0_pay3 (F := Ideal) s w n (ix2 p q)
      = Ideal.ofBits .f32 0x40000000#32
          * (∑ d : Fin 1024, (s (ix2 p d) * Ideal.ofBits .f32 0x3B800000#32) * w (ix2 q d))
        - (∑ d : Fin 1024, (s (ix2 p d) * Ideal.ofBits .f32 0x3B800000#32) * (s (ix2 p d) * Ideal.ofBits .f32 0x3B800000#32))
        - n (ix2 (0 : Fin 1) q) := by
  unfold k0_pay3
  simp only [shapeCast_self]
  exact congrArg₂ (· - ·)
    (congrArg₂ (· - ·)
      (congrArg (Ideal.ofBits .f32 0x40000000#32 * ·) (product_apply _ _ p q))
      (rowSum_spread_apply _ _ _ _ _ _ p q))
    (broadcastTo_1b_ab_apply n _ p q)

end Cert.KernelIdeal.Payload

end
-- ==== Proof.Spec.lean ====
/-
  The function both programs compute, stated once over the two argument arrays.

  `h` is the [1024, 256, 1024] array of hidden states (batch, time, feature) and `w` the [512, 1024] array of
  prototypes. The time mean of `h` is `pooled h b d = (Σ t, h b t d) · 2⁻⁸`; the score of prototype `m` for batch row
  `b` is the negated squared distance written out by the norm expansion,
      scores h w (b, m) = 2 · (Σ d, pooled b d · w m d) − (Σ d, pooled b d · pooled b d) − (Σ d, w m d · w m d).
  One program scales the time sum by the f32 word of 2⁻⁸ and the other divides it by the f32 word of 256; on the
  extended reals these are one operation (`div_256`), because 256 is a nonzero real and its reciprocal is that word.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The f32 word `0x43800000` is the real number 256. -/
theorem ofBits_256 : Ideal.ofBits .f32 0x43800000#32 = ((256 : ℝ) : EReal) := by
  simp [Ideal.ofBits, Ideal.ieee, -EReal.coe_mul]; norm_num

/-- The f32 word `0x3B800000` is the real number 1/256. -/
theorem ofBits_inv_256 : Ideal.ofBits .f32 0x3B800000#32 = ((1 / 256 : ℝ) : EReal) := by
  simp [Ideal.ofBits, Ideal.ieee, -EReal.coe_mul]; norm_num

/-- Dividing an extended real by 256 is scaling it by 1/256, infinities included. -/
theorem div_256 (x : EReal) :
    Ideal.div x (Ideal.ofBits .f32 0x43800000#32) = x * Ideal.ofBits .f32 0x3B800000#32 := by
  rw [ofBits_256, ofBits_inv_256, Ideal.div_coe (by norm_num)]

/-- The time mean of the hidden states at batch row `b`, feature `d`. -/
def pooled (h : (⟨3, ![1024, 256, 1024]⟩ : Shape).Idx → EReal) (b d : Fin 1024) : EReal :=
  (∑ t : Fin 256, h (ix3 b t d)) * Ideal.ofBits .f32 0x3B800000#32

/-- The score of prototype `m` for batch row `b`: twice the inner product less the two squared norms. -/
def score (h : (⟨3, ![1024, 256, 1024]⟩ : Shape).Idx → EReal) (w : (⟨2, ![512, 1024]⟩ : Shape).Idx → EReal)
    (b : Fin 1024) (m : Fin 512) : EReal :=
  Ideal.ofBits .f32 0x40000000#32 * (∑ d : Fin 1024, pooled h b d * w (ix2 m d))
    - (∑ d : Fin 1024, pooled h b d * pooled h b d) - (∑ d : Fin 1024, w (ix2 m d) * w (ix2 m d))

/-- The [1024, 512] array of scores. -/
def scores (h : (⟨3, ![1024, 256, 1024]⟩ : Shape).Idx → EReal) (w : (⟨2, ![512, 1024]⟩ : Shape).Idx → EReal) :
    (⟨2, ![1024, 512]⟩ : Shape).Idx → EReal :=
  fun i => score h w (i 0) (i 1)

theorem scores_apply (h : (⟨3, ![1024, 256, 1024]⟩ : Shape).Idx → EReal) (w : (⟨2, ![512, 1024]⟩ : Shape).Idx → EReal)
    (b : Fin 1024) (m : Fin 512) : scores h w (ix2 b m) = score h w b m := rfl

end Cert.Spec

end
-- ==== Proof.PointValue.lean ====
/-
  One grid point's block of results is a block of scores.

  Suppose the point's three input blocks are read off the argument arrays as follows: local batch row `p` of the
  hidden-state block is batch row `row p` of `h`; the prototype block is all of `w`; and the one-row block holds each
  prototype's squared norm. Then the body's result at `(p, q)` is the score of prototype `q` for batch row `row p`:
  the accumulator holds the time sums, scaling them by 2⁻⁸ gives the pooled row, and the closing arithmetic is the
  norm expansion with exactly these three sums.
-/
import proofs.«142011_j4252017623198_2_alg».proof.Proof.AccValue
import proofs.«142011_j4252017623198_2_alg».proof.Proof.Payload
import proofs.«142011_j4252017623198_2_alg».proof.Proof.Spec

noncomputable section

open scoped BigOperators

namespace Cert.KernelIdeal.PointValue

open Cert.KernelIdeal Cert.KernelIdeal.Gen Idealize.ShloMosaic Idealize.ShloMosaic.ValueIdx

theorem at_rows (x0 : Vec Ideal S16x256x1024 .f32) (x1 : Vec Ideal S512x1024 .f32) (x2 : Vec Ideal S1x512 .f32)
    (h : (⟨3, ![1024, 256, 1024]⟩ : Shape).Idx → EReal) (w : (⟨2, ![512, 1024]⟩ : Shape).Idx → EReal)
    (row : Fin 16 → Fin 1024)
    (hx0 : ∀ (p : Fin 16) (t : Fin 256) (d : Fin 1024), x0 (ix3 p t d) = h (ix3 (row p) t d))
    (hx1 : ∀ (q : Fin 512) (d : Fin 1024), x1 (ix2 q d) = w (ix2 q d))
    (hx2 : ∀ q : Fin 512, x2 (ix2 (0 : Fin 1) q) = ∑ d : Fin 1024, w (ix2 q d) * w (ix2 q d))
    (p : Fin 16) (q : Fin 512) :
    k0_pay3 (F := Ideal) (AccLoop.acc x0 k0_t1_loop.trips) x1 x2 (ix2 p q) = Cert.Spec.score h w (row p) q := by
  rw [Payload.result_apply, hx2]
  unfold Cert.Spec.score Cert.Spec.pooled
  simp only [AccValue.acc_apply, hx0, hx1]

/-- The same at any index of the result block. -/
theorem at_index (x0 : Vec Ideal S16x256x1024 .f32) (x1 : Vec Ideal S512x1024 .f32) (x2 : Vec Ideal S1x512 .f32)
    (h : (⟨3, ![1024, 256, 1024]⟩ : Shape).Idx → EReal) (w : (⟨2, ![512, 1024]⟩ : Shape).Idx → EReal)
    (row : Fin 16 → Fin 1024)
    (hx0 : ∀ (p : Fin 16) (t : Fin 256) (d : Fin 1024), x0 (ix3 p t d) = h (ix3 (row p) t d))
    (hx1 : ∀ (q : Fin 512) (d : Fin 1024), x1 (ix2 q d) = w (ix2 q d))
    (hx2 : ∀ q : Fin 512, x2 (ix2 (0 : Fin 1) q) = ∑ d : Fin 1024, w (ix2 q d) * w (ix2 q d))
    (j : S16x512.Idx) :
    k0_pay3 (F := Ideal) (AccLoop.acc x0 k0_t1_loop.trips) x1 x2 j = Cert.Spec.score h w (row (j 0)) (j 1) := by
  obtain ⟨p, q, rfl⟩ : ∃ (p : Fin 16) (q : Fin 512), j = ix2 p q := ⟨j 0, j 1, eq_ix2 j⟩
  exact at_rows x0 x1 x2 h w row hx0 hx1 hx2 p q

end Cert.KernelIdeal.PointValue

end
-- ==== Proof.LibHostRows.lean ====
/-
  General lemmas: the host's keepdims row reductions and scalar / column broadcasts of a matrix `[a, b]`, read at an
  index.

  * `broadcastInDim_scalar_apply`: a rank-0 array broadcast to any shape reads its one element everywhere;
  * `broadcastInDim_a_a1_apply`: a vector `[a]` made the column `[a, 1]` reads, at `(p, u)`, the vector at `p`;
  * `broadcastInDim_a1_ab_apply`: a column `[a, 1]` broadcast to `[a, b]` reads, at `(p, c)`, the column at `(p, 0)`;
  * `hostRowMax_apply`: at the ideal values the host's `reduce` with a `maximum` body over axis 1 of an `[a, b]` matrix
    is, at row `p`, the fold of `max` from the initial value over the row's entries;
  * `hostRowSum_apply`: the host's float sum over axis 1 is, at row `p`, the initial value plus the sum of the row's
    entries.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- A rank-0 array broadcast to any shape reads its one element everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

/-- A vector `[a]` made the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` broadcast to `[a, b]` reads, at `(p, c)`, the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The reduced row index `p` with column `k` put back is `(p, k)`. -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- The host's `reduce` with a `maximum` body over the columns, at row `p`: the fold of `max` over the row from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x _ h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- The host's float sum over the columns, at row `p`: the initial value plus the sum of the row. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (lift_row h p k)

end Idealize.ShloMosaic.ValueIdx

end
-- ==== Proof.HostPrefix.lean ====
/-
  What the region finds in the one-row array of squared norms.

  Before the region the host squares the prototypes entry by entry, sums each row from the zero word, and reshapes the
  [512] result to [1, 512]. At the ideal values the entry `(0, q)` of that array is `Σ d, w q d · w q d`.
-/
import proofs.«142011_j4252017623198_2_alg».proof.Proof.Gen.KernelIdeal.Frame
import proofs.«142011_j4252017623198_2_alg».proof.Proof.LibHostRows
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open scoped BigOperators

open Idealize.ShloMosaic Idealize.ShloMosaic.TcCoe Idealize.SL.Sem

namespace Cert.KernelIdeal.HostPrefix

open Cert.KernelIdeal Cert.KernelIdeal.Gen Idealize.ShloMosaic.ValueIdx

/-- The hidden states as the program is launched with them, as extended reals. -/
abbrev hidden (m : (ℓ : Loc nD τ sig) → Buf (Elt Ideal) ℓ) (c : Dev nD) : (⟨3, ![1024, 256, 1024]⟩ : Shape).Idx → EReal :=
  m ((c : Thread nD τ).loc main_arg0)

/-- The prototypes as the program is launched with them, as extended reals. -/
abbrev protos (m : (ℓ : Loc nD τ sig) → Buf (Elt Ideal) ℓ) (c : Dev nD) : (⟨2, ![512, 1024]⟩ : Shape).Idx → EReal :=
  m ((c : Thread nD τ).loc main_arg1)

/-- The host's term for the array, for any float values. -/
theorem normRow_eq {F : FTy → Type} [FloatOps F] (m : (ℓ : Loc nD τ sig) → Buf (Elt F) ℓ) (c : Dev nD) :
    (V m c main_v2 : S1x512.Idx → Elt F .f32)
      = shapeCast S1x512 (Host.reduceAdd (mulf (m ((c : Thread nD τ).loc main_arg1)) (m ((c : Thread nD τ).loc main_arg1)))
          (constant S_ .f32 0x00000000#32) reducesTo_S512x1024_S512_d1 h_S_) shapeCasts_S512_S1x512 := by
  show StableHlo.after hostOps0 (fun b => m (c, b)) (Proc.devRef .tc main_v2) = _
  after_results
  rfl

/-- A [512] vector reshaped to one row, at `(0, q)`. -/
theorem row_apply {α : Type} (x : S512.Idx → α) (hc : S512.ShapeCasts S1x512) (u : Fin 1) (q : Fin 512) :
    shapeCast S1x512 x hc (ix2 u q) = x (ix1 q) :=
  shapeCast_apply x hc _ _ (by
    have hu : u.val = 0 := by omega
    rw [Shape.rowMajor_val_one, Shape.rowMajor_val_two]
    show q.val = u.val * 512 + q.val
    rw [hu]; omega)

/-- At the ideal values, the entry for prototype `q`. -/
theorem normRow_apply (m : (ℓ : Loc nD τ sig) → Buf (Elt Ideal) ℓ) (c : Dev nD) (u : Fin 1) (q : Fin 512) :
    (V m c main_v2 : S1x512.Idx → EReal) (ix2 u q)
      = ∑ d : Fin 1024, protos m c (ix2 q d) * protos m c (ix2 q d) := by
  rw [normRow_eq, row_apply, hostRowSum_apply _ _ _ (by decide)]
  show Ideal.ofBits .f32 0x00000000#32 + _ = _
  rw [Ideal.ofBits_zero_f32, zero_add]
  rfl

end Cert.KernelIdeal.HostPrefix

end
-- ==== Proof.Blocks.lean ====
/-
  From the blocks the grid points write back to the whole array of scores.

  Grid point `t` (of 64) stages batch rows `16 t … 16 t + 15` of the hidden states, all of the prototypes and the one row
  of squared norms, and writes back rows `16 t … 16 t + 15` of the result. So its input blocks are the argument arrays
  read at those rows, the block it writes back is that block of `Spec.scores` (`PointValue`), and since the 64 blocks of
  16 rows tile the 1024 rows, the result array ends holding `Spec.scores` everywhere.
-/
import proofs.«142011_j4252017623198_2_alg».proof.Proof.PointValue
import proofs.«142011_j4252017623198_2_alg».proof.Proof.HostPrefix
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-- The block indices over the grid: the hidden states and the result move with the point along the batch axis, the
    prototypes and the norm row stay at block zero. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := Nat.lt_of_lt_of_le t.isLt (Nat.le_of_eq N_0)

/-- The batch row of the arrays that local row `p` of point `t`'s blocks is. -/
def row (t : Fin cfg0.N) (p : Fin 16) : Fin 1024 :=
  ⟨16 * t.val + p.val, by have := point_lt t; have := p.isLt; omega⟩

/-- The hidden-state block at point `t`: batch rows `16 t + p`. -/
theorem hidden_block (c : Dev nD) (t : Fin cfg0.N) (p : Fin 16) (s : Fin 256) (d : Fin 1024) :
    (iblk m c 0 t : Vec Ideal S16x256x1024 .f32) (ix3 p s d) = (HostPrefix.hidden m c) (ix3 (row t p) s d) := by
  unfold iblk
  rw [View.read_apply]
  show V m c main_arg0 _ = _
  rw [V_main_arg0]
  refine congrArg _ (funext fun a => Fin.ext ?_)
  obtain ⟨e0, e1, e2, -⟩ := index_facts t
  match a with
  | ⟨0, _⟩ => show win0_0.index t (0 : Fin 3) * 16 + 1 * p.val = 16 * t.val + p.val; rw [e0]; omega
  | ⟨1, _⟩ => show win0_0.index t (1 : Fin 3) * 256 + 1 * s.val = s.val; rw [e1]; omega
  | ⟨2, _⟩ => show win0_0.index t (2 : Fin 3) * 1024 + 1 * d.val = d.val; rw [e2]; omega

/-- The prototype block at every point: all the prototypes. -/
theorem proto_block (c : Dev nD) (t : Fin cfg0.N) (q : Fin 512) (d : Fin 1024) :
    (iblk m c 1 t : Vec Ideal S512x1024 .f32) (ix2 q d) = (HostPrefix.protos m c) (ix2 q d) := by
  unfold iblk
  rw [View.read_apply]
  show V m c main_arg1 _ = _
  rw [V_main_arg1]
  refine congrArg _ (funext fun a => Fin.ext ?_)
  obtain ⟨-, -, -, e0, e1, -⟩ := index_facts t
  match a with
  | ⟨0, _⟩ => show win0_1.index t (0 : Fin 2) * 512 + 1 * q.val = q.val; rw [e0]; omega
  | ⟨1, _⟩ => show win0_1.index t (1 : Fin 2) * 1024 + 1 * d.val = d.val; rw [e1]; omega

/-- The norm-row block at every point: each prototype's squared norm. -/
theorem norm_block (c : Dev nD) (t : Fin cfg0.N) (q : Fin 512) :
    (iblk m c 2 t : Vec Ideal S1x512 .f32) (ix2 (0 : Fin 1) q)
      = ∑ d : Fin 1024, (HostPrefix.protos m c) (ix2 q d) * (HostPrefix.protos m c) (ix2 q d) := by
  unfold iblk
  rw [View.read_apply]
  show V m c main_v2 _ = _
  refine Eq.trans (congrArg _ (funext fun a => Fin.ext ?_)) (HostPrefix.normRow_apply m c 0 q)
  obtain ⟨-, -, -, -, -, e0, e1, -⟩ := index_facts t
  match a with
  | ⟨0, _⟩ => show win0_2.index t (0 : Fin 2) * 1 + 1 * 0 = 0; rw [e0]
  | ⟨1, _⟩ => show win0_2.index t (1 : Fin 2) * 512 + 1 * q.val = q.val; rw [e1]; omega

/-- What point `t` writes back is block `t` of the scores. -/
theorem flushed_eq (c : Dev nD) (t : Fin cfg0.N) :
    (dats m 0 c).flushed 3 t
      = ((cfg0.win 3).blk t).view.read (Elt Ideal) (Cert.Spec.scores (HostPrefix.hidden m c) (HostPrefix.protos m c)) := by
  show (cfg0.win 3).cut (grid0.coords t) ((dats m 0 c).after 3 t) = _
  rw [after0_3]
  unfold outsAt0
  rw [AccLoop.out_eq (F := Ideal) c (grid0.coords t) (ms0_0 t) (hs0_0 t) (ms0_1 t) (hs0_1 t) (ms0_2 t) (hs0_2 t)
    (ms0_3 t) (hs0_3 t) scM0_0 (Memref.isWhole_whole _) (iblk m c 0 t) (iblk m c 1 t) (iblk m c 2 t)]
  funext j
  rw [View.read_apply]
  refine (PointValue.at_index (iblk m c 0 t) (iblk m c 1 t) (iblk m c 2 t) (HostPrefix.hidden m c) (HostPrefix.protos m c) (row t)
    (hidden_block m c t) (proto_block m c t) (norm_block m c t) ((cfg0.win 3).xinj (grid0.coords t) j)).trans ?_
  obtain ⟨-, -, -, -, -, -, -, e0, e1⟩ := index_facts t
  refine congrArg₂ (Cert.Spec.score _ _) (Fin.ext ?_) (Fin.ext ?_)
  · show 16 * t.val + (j 0).val = win0_3.index t (0 : Fin 2) * 16 + 1 * (j 0).val
    rw [e0]; omega
  · show (j 1).val = win0_3.index t (1 : Fin 2) * 512 + 1 * (j 1).val
    rw [e1]; omega

/-- An index of the result array lies in point `t`'s block iff each coordinate is in the block's range. -/
theorem mem_blk (t : Fin cfg0.N) (i : S1024x512.Idx) :
    i ∈ ((cfg0.win 3).blk t).view.set ↔ ∀ a : Fin 2, win0_3.index t a * S16x512.size a ≤ (i a).val
      ∧ (i a).val < win0_3.index t a * S16x512.size a + S16x512.size a := by
  show i ∈ ((View.whole main_v3).slice (win0_3.rect t)).set ↔ _
  rw [View.set_slice_whole, Rect.mem_set_unit]
  exact Iff.rfl

/-- Every index of the result array is in the block of the point its batch row falls to. -/
theorem cover (i : S1024x512.Idx) :
    ∃ t : Fin cfg0.N, (cfg0.win 3).flush t = true ∧ i ∈ ((cfg0.win 3).blk t).view.set := by
  have h0 : (i 0).val < 1024 := (i 0).isLt
  have h1 : (i 1).val < 512 := (i 1).isLt
  have hN : grid0.N = 64 := N_0
  have ht : (i 0).val / 16 < cfg0.N := by show (i 0).val / 16 < grid0.N; rw [hN]; omega
  obtain ⟨-, -, -, -, -, -, -, e0, e1⟩ := index_facts ⟨(i 0).val / 16, ht⟩
  refine ⟨⟨(i 0).val / 16, ht⟩, flush0_3 _, ?_⟩
  rw [mem_blk]
  intro a
  match a with
  | ⟨0, _⟩ =>
    show win0_3.index ⟨(i 0).val / 16, ht⟩ (0 : Fin 2) * 16 ≤ (i 0).val
      ∧ (i 0).val < win0_3.index ⟨(i 0).val / 16, ht⟩ (0 : Fin 2) * 16 + 16
    rw [e0]; show (i 0).val / 16 * 16 ≤ (i 0).val ∧ (i 0).val < (i 0).val / 16 * 16 + 16; omega
  | ⟨1, _⟩ =>
    show win0_3.index ⟨(i 0).val / 16, ht⟩ (1 : Fin 2) * 512 ≤ (i 1).val
      ∧ (i 1).val < win0_3.index ⟨(i 0).val / 16, ht⟩ (1 : Fin 2) * 512 + 512
    rw [e1]; omega

/-- After the run the result array holds the scores. -/
theorem scores_array (c : Dev nD) :
    (dats m 0 c).arrAt 3 cfg0.N = Cert.Spec.scores (HostPrefix.hidden m c) (HostPrefix.protos m c) :=
  (dats m 0 c).arrAt_eq_of_cover 3 _ (fun t _ => flushed_eq m c t) (cover)

end Cert.KernelIdeal.Blocks

end
-- ==== Proof.KernelRun.lean ====
/-
  The kernel program's run, read: its result is the closing average of the scores.

  After the region the host reshapes the [1024, 512] result to [1024, 64, 8], sums over the middle axis from the zero
  word and divides by the word of 64 (`closing`). The region leaves the scores in that array (`Blocks.scores_array`),
  the closing lines write no array of the region, so the program's result is `closing` of the scores, and the two
  argument arrays end as they were launched.
-/
import proofs.«142011_j4252017623198_2_alg».proof.Proof.Blocks
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.HostPrefix

/-- The host's closing lines as one function of the [1024, 512] array: each output `(b, l)` is the sum over `p < 64` of
    the entries `(b, 8 p + l)`, from zero, divided by 64. -/
def closing (X : FVec Ideal S1024x512 .f32) : FVec Ideal S1024x8 .f32 :=
  Host.divf (F := Ideal)
    (Host.reduceAdd (F := Ideal) (shapeCast S1024x64x8 X shapeCasts_S1024x512_S1024x64x8)
      (constant (F := Ideal) S_ .f32 0x00000000#32) reducesTo_S1024x64x8_S1024x8_d1 h_S_)
    (broadcastInDim S1024x8 ![] bcast_S_S1024x8 (constant (F := Ideal) S_ .f32 0x42800000#32))

variable (m : (ℓ : Loc nD τ sig) → Buf (Elt Ideal) ℓ) (ρ : Dev nD → PrngReg)

/-- The result buffer after the closing lines. -/
theorem result_value (c : Dev nD) :
    Pipeline.afterTail₀ cfgs (dats m) 0 (V0 m) [hostOps1] c main_v7
      = closing (Cert.Spec.scores (hidden m c) (protos m c)) := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v3) = Cert.Spec.scores (hidden m c) (protos m c) :=
    (Pipeline.withArrays_arr spec0 launch0.win.arr_inj c _ _ 3).trans (Blocks.scores_array m c)
  rw [e]
  rfl

/-- Every weakly fair execution of the kernel program terminates with its result at `closing` of the scores of the
    launched arguments, and the arguments unchanged. -/
theorem run : θ_run defs (onTc (τ := τ) (main (F := Ideal))) ⟨m, fun _ => 0, ρ⟩ fun r => ∀ c : Dev nD,
      r.2.mem ((c.tc : Thread nD τ).loc main_v7) = closing (Cert.Spec.scores (hidden m c) (protos m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 rfl (by decide))).trans (result_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelRun

end
-- ==== Proof.RefValue.lean ====
/-
  The reference computes the scores of `Spec.lean`.

  Stage by stage: the time sum divided by 256 is `Spec.pooled` (the division is the scaling by 2⁻⁸, and the sum's
  initial value is the zero word); the contraction over the feature axis is the inner product of a pooled row with a
  prototype; the two row sums of squares are the squared norms; the broadcasts put the batch row's norm in every
  column and the prototype's norm in every row. So the array before the final reshape is `Spec.scores`.
-/
import proofs.«142011_j4252017623198_2_alg».proof.Proof.Gen.ReferenceIdeal.Read
import proofs.«142011_j4252017623198_2_alg».proof.Proof.Spec

noncomputable section

open scoped BigOperators

namespace Cert.ReferenceIdeal.RefValue

open Cert.ReferenceIdeal Cert.ReferenceIdeal.Read Idealize.ShloMosaic Idealize.ShloMosaic.ValueIdx

/-- The mean over time, at `(b, d)`. -/
theorem mean_apply (x0 : (⟨S1024x256x1024, .f32⟩ : BufTy).Contents (Elt Ideal)) (b d : Fin 1024) :
    val_main_v2 (F := Ideal) x0 (ix2 b d) = Cert.Spec.pooled x0 b d := by
  rw [val_main_v2_apply, val_main_v0_apply, val_main_v1_apply, val_main_cst_0_apply, val_main_cst_apply]
  simp only [Ideal.hostDivf_def, Ideal.ofBits_def, Ideal.ofBits_zero_f32, zero_add]
  rw [Cert.Spec.div_256]
  unfold Cert.Spec.pooled
  refine congrArg (· * _) (Finset.sum_congr rfl fun t _ => congrArg x0 ?_)
  exact funext fun a => Fin.ext (by match a with | ⟨0, _⟩ => rfl | ⟨1, _⟩ => rfl | ⟨2, _⟩ => rfl)

/-- The squared norm of the pooled row `b`. -/
theorem rowNorm_apply (x0 : (⟨S1024x256x1024, .f32⟩ : BufTy).Contents (Elt Ideal)) (b : Fin 1024) :
    val_main_v4 (F := Ideal) x0 (ix1 b) = ∑ d : Fin 1024, Cert.Spec.pooled x0 b d * Cert.Spec.pooled x0 b d := by
  rw [val_main_v4_apply, val_main_cst_1_apply]
  simp only [Ideal.ofBits_def, Ideal.ofBits_zero_f32, zero_add]
  refine Finset.sum_congr rfl fun d _ => ?_
  rw [show idx_main_v4 (ix1 b) d = ix2 b d from
    funext fun a => Fin.ext (by match a with | ⟨0, _⟩ => rfl | ⟨1, _⟩ => rfl), val_main_v3_apply, mean_apply]
  rfl

/-- The squared norm of prototype `m`. -/
theorem protoNorm_apply (x1 : (⟨S512x1024, .f32⟩ : BufTy).Contents (Elt Ideal)) (m : Fin 512) :
    val_main_v7 (F := Ideal) x1 (ix1 m) = ∑ d : Fin 1024, x1 (ix2 m d) * x1 (ix2 m d) := by
  rw [val_main_v7_apply, val_main_cst_2_apply]
  simp only [Ideal.ofBits_def, Ideal.ofBits_zero_f32, zero_add]
  refine Finset.sum_congr rfl fun d _ => ?_
  rw [show idx_main_v7 (ix1 m) d = ix2 m d from
    funext fun a => Fin.ext (by match a with | ⟨0, _⟩ => rfl | ⟨1, _⟩ => rfl), val_main_v6_apply]
  rfl

/-- The inner product of the pooled row `b` with prototype `m`. -/
theorem inner_apply (x0 : (⟨S1024x256x1024, .f32⟩ : BufTy).Contents (Elt Ideal))
    (x1 : (⟨S512x1024, .f32⟩ : BufTy).Contents (Elt Ideal)) (b : Fin 1024) (m : Fin 512) :
    val_main_v8 (F := Ideal) x0 x1 (ix2 b m) = ∑ d : Fin 1024, Cert.Spec.pooled x0 b d * x1 (ix2 m d) := by
  rw [val_main_v8_apply]
  refine Finset.sum_congr rfl fun d _ => ?_
  rw [show lidx_main_v8 (ix2 b m) d = ix2 b d from
      funext fun a => Fin.ext (by match a with | ⟨0, _⟩ => rfl | ⟨1, _⟩ => rfl),
    show ridx_main_v8 (ix2 b m) d = ix2 m d from
      funext fun a => Fin.ext (by match a with | ⟨0, _⟩ => rfl | ⟨1, _⟩ => rfl), mean_apply]

/-- The array the reference reshapes and averages at the end is the array of scores. -/
theorem scores_eq (x0 : (⟨S1024x256x1024, .f32⟩ : BufTy).Contents (Elt Ideal))
    (x1 : (⟨S512x1024, .f32⟩ : BufTy).Contents (Elt Ideal)) :
    val_main_v15 (F := Ideal) x0 x1 = Cert.Spec.scores x0 x1 := by
  funext i
  obtain ⟨b, m, rfl⟩ : ∃ (b : Fin 1024) (m : Fin 512), i = ix2 b m := ⟨i 0, i 1, eq_ix2 i⟩
  rw [val_main_v15_apply, val_main_v12_apply, val_main_v10_apply, val_main_v9_apply, val_main_cst_3_apply,
    val_main_v11_apply, val_main_v5_apply, val_main_v14_apply, val_main_v13_apply, inner_apply,
    show idx_main_v5 (idx_main_v11 (ix2 b m)) = ix1 b from
      funext fun a => Fin.ext (by match a with | ⟨0, _⟩ => rfl),
    show idx_main_v13 (idx_main_v14 (ix2 b m)) = ix1 m from
      funext fun a => Fin.ext (by match a with | ⟨0, _⟩ => rfl),
    rowNorm_apply, protoNorm_apply]
  rfl

end Cert.ReferenceIdeal.RefValue

end
-- ==== Proof.Join.lean ====
/-
  The reference's result is the same closing average of the same scores.

  The reference ends with the very lines the kernel program ends with — reshape to [1024, 64, 8], sum over the middle
  axis from zero, divide by 64 — applied to the array that `RefValue.scores_eq` identifies with `Spec.scores`.
-/
import proofs.«142011_j4252017623198_2_alg».proof.Proof.RefValue
import proofs.«142011_j4252017623198_2_alg».proof.Proof.KernelRun

noncomputable section

namespace Cert.ReferenceIdeal.Join

open Cert.ReferenceIdeal Cert.ReferenceIdeal.Read Idealize.ShloMosaic

theorem result_eq (x0 : (⟨S1024x256x1024, .f32⟩ : BufTy).Contents (Elt Ideal))
    (x1 : (⟨S512x1024, .f32⟩ : BufTy).Contents (Elt Ideal)) :
    val_main_v19 (F := Ideal) x0 x1 = Cert.KernelIdeal.KernelRun.closing (Cert.Spec.scores x0 x1) := by
  unfold val_main_v19 val_main_v17 val_main_v16 val_main_v18 val_main_cst_4 val_main_cst_5
  rw [RefValue.scores_eq]
  rfl

end Cert.ReferenceIdeal.Join

end
-- ==== Proof.lean ====
/-
  The kernel program and its reference compute the same [1024, 8] array over the extended reals.

  Both average the hidden states over time, score each of the 512 prototypes against each pooled row by the norm
  expansion 2·⟨a, w⟩ − ‖a‖² − ‖w‖², and average the scores over the 64 prototypes of each of the 8 labels. They differ
  in three places, none of which changes a value at the ideal instance: the kernel program sums the 256 time steps in
  eight chunks of 32 (addition of extended reals is commutative and associative); it scales the sum by the f32 word of
  2⁻⁸ where the reference divides by the f32 word of 256 (one operation on every extended real); and it rounds the
  operands of its matrix product to a shorter format (the identity at the ideal instance). The proof reads the kernel
  program's result array off its run as `closing (Spec.scores h w)`, reads the reference's result stage by stage as the
  same term, and pairs the two runs. No finiteness of the inputs is needed. The idealized kernel program is the
  kernel program's own text, so the preservation claim has no conjunct.
-/
import proofs.«142011_j4252017623198_2_alg».proof.Defs
import proofs.«142011_j4252017623198_2_alg».proof.Proof.Gen.Kernel
import proofs.«142011_j4252017623198_2_alg».proof.Proof.Gen.Kernel.Skeleton
import proofs.«142011_j4252017623198_2_alg».proof.Proof.Gen.Kernel.Loops
import proofs.«142011_j4252017623198_2_alg».proof.Proof.Gen.Kernel.Launch
import proofs.«142011_j4252017623198_2_alg».proof.Proof.Gen.Kernel.Points
import proofs.«142011_j4252017623198_2_alg».proof.Proof.Gen.Kernel.Frame
import proofs.«142011_j4252017623198_2_alg».proof.Proof.Gen.KernelIdeal
import proofs.«142011_j4252017623198_2_alg».proof.Proof.Gen.KernelIdeal.Skeleton
import proofs.«142011_j4252017623198_2_alg».proof.Proof.Gen.KernelIdeal.Loops
import proofs.«142011_j4252017623198_2_alg».proof.Proof.Gen.KernelIdeal.Launch
import proofs.«142011_j4252017623198_2_alg».proof.Proof.Gen.KernelIdeal.Points
import proofs.«142011_j4252017623198_2_alg».proof.Proof.Gen.KernelIdeal.Frame
import proofs.«142011_j4252017623198_2_alg».proof.Proof.Gen.ReferenceIdeal
import proofs.«142011_j4252017623198_2_alg».proof.Proof.Gen.ReferenceIdeal.Run
import proofs.«142011_j4252017623198_2_alg».proof.Proof.Gen.ReferenceIdeal.Read
import proofs.«142011_j4252017623198_2_alg».proof.Proof.Gen.Pre_finite_inputs
import proofs.«142011_j4252017623198_2_alg».proof.Proof.KernelRun
import proofs.«142011_j4252017623198_2_alg».proof.Proof.Join
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, both programs end with `closing (Spec.scores h w)`. -/
theorem algebraic : Cert.algebraic_KernelIdeal_ReferenceIdeal := by
  intro m ρ m' ρ' _ hagree
  refine ⟨fun c => Cert.KernelIdeal.KernelRun.closing
      (Cert.Spec.scores (Cert.KernelIdeal.HostPrefix.hidden m c) (Cert.KernelIdeal.HostPrefix.protos m c)),
    Cert.KernelIdeal.KernelRun.run m ρ, ?_⟩
  refine (θ_run Cert.ReferenceIdeal.defs _ _).mono
    (fun _ h c => ⟨(h c).1.trans ((Cert.ReferenceIdeal.Read.val_main_v19_eq _ _).trans ?_), (h c).2⟩)
    (Cert.ReferenceIdeal.Value.run (F := Ideal) m' ρ')
  rw [(hagree c).1, (hagree c).2]
  exact Cert.ReferenceIdeal.Join.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
